-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S1024x1024 : Shape := ⟨2, ![1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S16x1024x1024 .f32) (main_arg1 : FVec F S16x1024x1024 .f32) (main_arg2 : FVec F S1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S16x1024x1024 : Shape := ⟨3, ![16, 1024, 1024]⟩
abbrev S1024x1024 : Shape := ⟨2, ![1024, 1024]⟩
abbrev S1x512x1024 : Shape := ⟨3, ![1, 512, 1024]⟩
abbrev S1x512x512 : Shape := ⟨3, ![1, 512, 512]⟩
abbrev S512x1024 : Shape := ⟨2, ![512, 1024]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S16x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x512, .f32⟩
  | .local _ .vmem, ⟨6, _⟩ => ⟨S1x512x512, .f32⟩
  | .local _ .vmem, ⟨7, _⟩ => ⟨S512x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x1024x1024.size a
  hwx0_0 : ∀ i : grid0.Coords, EltTy.bits .f32 = 32 ∨ (Rect.block (s := S16x1024x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S16x1024x1024.size a
  hwx0_2 : ∀ i : grid0.Coords, EltTy.bits .f32 = 32 ∨ (Rect.block (s := S16x1024x1024) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S16x1024x1024.size a
  hwx0_3 : ∀ i : grid0.Coords, EltTy.bits .f32 = 32 ∨ (Rect.block (s := S16x1024x1024) S1x512x512.size (cc0_transform_3 i) (hinb0_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S1024x1024, .f32⟩
  | .hbm, ⟨3, _⟩ => ⟨S16x1024x1024, .f32⟩
  | .hbm, ⟨4, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S16x1024x1024_S1024x1024_S16x1024x1024_2_0_01_1_n_n_wf : DotDims.WF S16x1024x1024 S1024x1024 S16x1024x1024 [2] [0] [0, 1] [1] [] []
  dot_S16x1024x1024_S16x1024x1024_S16x1024x1024_2_2_1_1_0_0_wf : DotDims.WF S16x1024x1024 S16x1024x1024 S16x1024x1024 [2] [2] [1] [1] [0] [0]

variable [Facts₀]

def dot_S16x1024x1024_S1024x1024_S16x1024x1024_2_0_01_1_n_n : DotDims S16x1024x1024 S1024x1024 S16x1024x1024 where
  lhsContracting := [2]
  rhsContracting := [0]
  lhsNonContracting := [0, 1]
  rhsNonContracting := [1]
  lhsBatch := []
  rhsBatch := []
  wf := dot_S16x1024x1024_S1024x1024_S16x1024x1024_2_0_01_1_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf

class Facts : Prop extends Facts₀ where

variable [Facts]
-- ==== Proof.Pieces.lean ====
/-
  What one run of the kernel body leaves behind, as values of what it loaded.

  The body has two cases. At a grid point whose last coordinate is 0 it first stores into the carried scratch the
  product  P = (row block of X) · M  and then stores into the output block the product of the scratch, read back,
  with the transposed row block of Y:  P · Yblockᵀ. At any other point it stores nothing into the scratch and
  leaves in the output block  S · Yblockᵀ, where S is whatever the scratch held when the point began.
  Each case's stores are one rectangle covering the whole buffer, so what the buffer holds afterwards is that store's
  value; a load of a whole buffer reads the buffer's contents. The statements hold for any float instance.
-/
import proofs.«144167_j27221502722366_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- First case, the scratch: it ends holding the first product, of the X block and M as loaded. -/
theorem scratch_first (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x512x1024 .f32) (harg5 : arg5.IsWhole) (arg6 : Memref sig .tc .vmem S1x512x512 .f32) (harg6 : arg6.IsWhole) (arg7 : Memref sig .tc .vmem S512x1024 .f32) (harg7 : arg7.IsWhole) (hc0 : cond0_0 i)
    (x0 : Vec F S1x512x1024 .f32) (x1 : Vec F S1024x1024 .f32) (x2 : Vec F S1x512x1024 .f32) :
    sout0_A_0 c i arg3 harg3 arg4 harg4 arg5 harg5 arg6 harg6 arg7 harg7 hc0 x0 x1 x2 = k0_pay1 x0 x1 := by
  unfold sout0_A_0
  rw [View.read_writes_eq_canon _ _ _ (scover0_A_0 c i arg3 harg3 arg4 harg4 arg5 harg5 arg6 harg6 arg7 harg7 hc0 x0 x1 x2)]
  unfold kernelRun0_A
  dsimp only
  sl_unfold_words
  rw [View.canon_unit_zero zero2]
  simp only [View.readAt_eq_ld, harg3.read_unread, harg4.read_unread, View.ld_unit_zero (S := S1x512x1024) zero3,
    View.ld_unit_zero (S := S1024x1024) zero2]

/-- First case, the output block: the second product, of the first product (the scratch read back right after it was
    stored) and the Y block. -/
theorem out_first (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x512x1024 .f32) (harg5 : arg5.IsWhole) (arg6 : Memref sig .tc .vmem S1x512x512 .f32) (harg6 : arg6.IsWhole) (arg7 : Memref sig .tc .vmem S512x1024 .f32) (harg7 : arg7.IsWhole) (hc0 : cond0_0 i)
    (x0 : Vec F S1x512x1024 .f32) (x1 : Vec F S1024x1024 .f32) (x2 : Vec F S1x512x1024 .f32) :
    out0_A_3 c i arg3 harg3 arg4 harg4 arg5 harg5 arg6 harg6 arg7 harg7 hc0 x0 x1 x2 = k0_pay2 (k0_pay1 x0 x1) x2 := by
  unfold out0_A_3
  rw [View.read_writes_eq_canon _ _ _ (cover0_A_3 c i arg3 harg3 arg4 harg4 arg5 harg5 arg6 harg6 arg7 harg7 hc0 x0 x1 x2)]
  unfold kernelRun0_A
  dsimp only
  sl_unfold_words
  rw [View.canon_unit_zero zero3, View.readCov_unit_zero (S := S512x1024) _ zero2]
  simp only [View.readAt_eq_ld, harg3.read_unread, harg4.read_unread, harg5.read_unread,
    View.ld_unit_zero (S := S1x512x1024) zero3, View.ld_unit_zero (S := S1024x1024) zero2]

/-- Other case, the output block: the second product, of what the scratch held and the Y block. -/
theorem out_later (c : Dev nD) (i : grid0.Coords) (arg3 : Memref sig .tc .vmem S1x512x1024 .f32) (harg3 : arg3.IsWhole) (arg4 : Memref sig .tc .vmem S1024x1024 .f32) (harg4 : arg4.IsWhole) (arg5 : Memref sig .tc .vmem S1x512x1024 .f32) (harg5 : arg5.IsWhole) (arg6 : Memref sig .tc .vmem S1x512x512 .f32) (harg6 : arg6.IsWhole) (arg7 : Memref sig .tc .vmem S512x1024 .f32) (harg7 : arg7.IsWhole) (hc0 : ¬cond0_0 i)
    (x0 : Vec F S1x512x1024 .f32) (x1 : Vec F S1024x1024 .f32) (x2 : Vec F S1x512x1024 .f32) (xs0 : Vec F S512x1024 .f32) :
    out0_B_3 c i arg3 harg3 arg4 harg4 arg5 harg5 arg6 harg6 arg7 harg7 hc0 x0 x1 x2 xs0 = k0_pay2 xs0 x2 := by
  unfold out0_B_3
  rw [View.read_writes_eq_canon _ _ _ (cover0_B_3 c i arg3 harg3 arg4 harg4 arg5 harg5 arg6 harg6 arg7 harg7 hc0 x0 x1 x2 xs0)]
  unfold kernelRun0_B
  dsimp only
  rw [View.canon_unit_zero zero3]
  simp only [View.readAt_eq_ld, harg5.read_unread, harg7.read_unread, View.ld_unit_zero (S := S1x512x1024) zero3,
    View.ld_unit_zero (S := S512x1024) zero2]

end Cert.KernelIdeal.Pieces

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.LibDotT.lean ====
/-
  A matrix product with the transpose of the right factor, read at an index, on the extended reals.

  For a rows × contraction by columns × contraction product — the dimension numbers that contract the left operand's
  second axis with the right operand's SECOND axis, with no batch axis — the entry at (i, j) of the host's
  `dot_general`, and of a `tpu.matmul` accumulated into the zero splat, is the plain sum over the contraction
  coordinate k of l (i, k) · r (j, k): row i of the left operand against row j of the right one. The sum over the
  product's own contraction index is re-indexed through the bijection between a one-axis contraction index and its
  coordinate; the operand indices are computed from the dimension numbers: the left operand reads the result's first
  coordinate on its first axis, the right operand reads the result's second coordinate on its first axis, and both
  read the contraction coordinate on their second axis. Nothing here needs finiteness: only that the sum is re-indexed.
-/
import Idealize.ShloMosaic.Lib.ValueIdx
import Idealize.ShloMosaic.PureOps.Ideal.Laws

noncomputable section

namespace Cert.LibDotT

open Idealize.ShloMosaic Idealize.ShloMosaic.ValueIdx

variable {M K N : Nat}

/-- The contraction of row `y 0` of `l` with row `y 1` of `r`: the sum over the product's contraction index is
    the sum over the one contracted coordinate. -/
theorem sum_transposed (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (l : (⟨2, ![M, K]⟩ : Shape).Idx → EReal) (r : (⟨2, ![N, K]⟩ : Shape).Idx → EReal) (y : (⟨2, ![M, N]⟩ : Shape).Idx) :
    ∑ q : d.contr.Idx, l (d.lhsIdx y q) * r (d.rhsIdx y q) = ∑ k : Fin K, l (ix2 (y 0) k) * r (ix2 (y 1) k) := by
  obtain ⟨lc, rc, ln, rn, lb, rb, wf⟩ := d
  dsimp only at hlc hrc hln hrn hlb hrb
  subst hlc hrc hln hrn hlb hrb
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [1], [0], [0], [], [], wf⟩ : DotDims ⟨2, ![M, K]⟩ ⟨2, ![N, K]⟩ ⟨2, ![M, N]⟩) y
      ((contrEquiv1 (⟨[1], [1], [0], [0], [], [], wf⟩ : DotDims ⟨2, ![M, K]⟩ ⟨2, ![N, K]⟩ ⟨2, ![M, N]⟩) K rfl rfl).symm k)
      = ix2 (y 1) k := funext fun a => Fin.ext (by
    match a with
    | ⟨0, _⟩ =>
      unfold DotDims.rhsIdx
      rw [dif_neg (by simp), dif_pos (by simp)]
      rfl
    | ⟨1, _⟩ => exact (DotDims.rhsIdx_val_of_single _ rfl y _).trans hk)
  rw [el, er]
  rfl

variable {φ₁ φ₂ : FTy}

/-- The host's `dot_general` of those dimension numbers, at an index: the sum over the contracted coordinate. -/
theorem dotGeneral_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (sched : HostSchedule)
    (l : FVec Ideal ⟨2, ![M, K]⟩ φ₁) (r : FVec Ideal ⟨2, ![N, K]⟩ φ₂) (y : (⟨2, ![M, N]⟩ : Shape).Idx) :
    FloatOps.dotGeneral d prec sched l r y = ∑ k : Fin K, l (ix2 (y 0) k) * r (ix2 (y 1) k) := by
  rw [Ideal.dotGeneral_apply]
  exact sum_transposed d hlc hrc hln hrn hlb hrb l r y

/-- A `tpu.matmul` of those dimension numbers into the zero accumulator, at an index: the same sum. -/
theorem matmul_zero_transposed_apply (d : DotDims ⟨2, ![M, K]⟩ ⟨2, ![N, K]⟩ ⟨2, ![M, N]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision)
    (l : FVec Ideal ⟨2, ![M, K]⟩ φ₁) (r : FVec Ideal ⟨2, ![N, K]⟩ φ₂) (y : (⟨2, ![M, N]⟩ : Shape).Idx) :
    FloatOps.matmul d prec l r (constant ⟨2, ![M, N]⟩ .f32 0x00000000#32) y
      = ∑ k : Fin K, l (ix2 (y 0) k) * r (ix2 (y 1) k) := by
  rw [Ideal.matmul_constant_zero_apply]
  exact sum_transposed d hlc hrc hln hrn hlb hrb l r y

end Cert.LibDotT

end
-- ==== Proof.Payload.lean ====
/-
  The two products the kernel body computes, read at an index on the extended reals.

  The first product takes the loaded block of X (shape [1, 512, 1024], the unit axis dropped) and the loaded M and
  forms, at (r, k),  Σ_h Xblock[0, r, h] · M[h, k].  The second takes a [512, 1024] array S (the carried scratch) and
  the loaded block of Y and forms, at (0, r, q),  Σ_k S[r, k] · Yblock[0, q, k]:  row r of S against row q of the Y
  block. On the extended reals a change of float format is the identity and a matrix product accumulated into the
  zero splat is the plain sum over the contracted coordinate.
-/
import proofs.«144167_j27221502722366_1_alg».proof.Proof.Gen.KernelIdeal.Skeleton
import proofs.«144167_j27221502722366_1_alg».proof.Proof.LibDot
import proofs.«144167_j27221502722366_1_alg».proof.Proof.LibDotT
import Idealize.ShloMosaic.Lib.ValueLayout
import Idealize.ShloMosaic.Lib.Pipeline.Value

noncomputable section

open Idealize.ShloMosaic Idealize.ShloMosaic.ValueIdx

namespace Cert.KernelIdeal.Payload

open Cert.KernelIdeal Cert.KernelIdeal.Gen

/-- The first product at (r, k): row r of the X block against column k of M. -/
theorem first_product_apply (x0 : Vec Ideal S1x512x1024 .f32) (x1 : Vec Ideal S1024x1024 .f32) (r : Fin 512) (k : Fin 1024) :
    k0_pay1 (F := Ideal) x0 x1 (ix2 r k) = ∑ h : Fin 1024, x0 (ix3 (0 : Fin 1) r h) * x1 (ix2 h k) := by
  unfold k0_pay1
  rw [shapeCast_self]
  refine (Cert.LibDot.matmul_zero_plain_apply dot_S512x1024_S1024x1024_S512x1024_1_0_0_1_n_n rfl rfl rfl rfl rfl rfl none _ _ (ix2 r k)).trans ?_
  refine Finset.sum_congr rfl fun h _ => ?_
  rw [truncf_apply, truncf_apply]
  exact congrArg (· * x1 (ix2 h k)) (shapeCast_1ab_ab_apply x0 _ r h)

/-- The second product at (0, r, q): row r of the scratch against row q of the Y block. -/
theorem second_product_apply (s : Vec Ideal S512x1024 .f32) (x2 : Vec Ideal S1x512x1024 .f32) (u : Fin 1) (r q : Fin 512) :
    k0_pay2 (F := Ideal) s x2 (ix3 u r q) = ∑ k : Fin 1024, s (ix2 r k) * x2 (ix3 (0 : Fin 1) q k) := by
  unfold k0_pay2
  rw [shapeCast_ab_1ab_apply]
  refine (Cert.LibDotT.matmul_zero_transposed_apply dot_S512x1024_S512x1024_S512x512_1_1_0_0_n_n rfl rfl rfl rfl rfl rfl none _ _ (ix2 r q)).trans ?_
  refine Finset.sum_congr rfl fun k _ => ?_
  rw [truncf_apply, truncf_apply]
  exact congrArg (s (ix2 r k) * ·) (shapeCast_1ab_ab_apply x2 _ q k)

end Cert.KernelIdeal.Payload

end
-- ==== Proof.Spec.lean ====
/-
  The bilinear score, stated once for both programs.

  For arrays X, Y of shape [16, 1024, 1024] and a matrix M of shape [1024, 1024], the entry (b, x, y) of the result is
      Σ_k (Σ_h X[b, x, h] · M[h, k]) · Y[b, y, k]
  on the extended reals: row x of batch b of X is first multiplied into M, and the resulting row is contracted with
  row y of batch b of Y. Both programs compute exactly this nested sum, in this association, so no law of the
  extended reals beyond re-indexing a finite sum is needed, and no finiteness.
-/
import Idealize.ShloMosaic.PureOps.Ideal
import Idealize.ShloMosaic.Lib.ValueIdx

noncomputable section

namespace Cert.Bilinear

open Idealize.ShloMosaic Idealize.ShloMosaic.ValueIdx

/-- The shape of X, of Y and of the result. -/
abbrev SB : Shape := ⟨3, ![16, 1024, 1024]⟩
/-- The shape of M. -/
abbrev SM : Shape := ⟨2, ![1024, 1024]⟩

/-- Row `x` of batch `b` of X multiplied into M, at column `k`:  Σ_h X[b, x, h] · M[h, k]. -/
def rowTimesM (X : SB.Idx → EReal) (M : SM.Idx → EReal) (b : Fin 16) (x : Fin 1024) (k : Fin 1024) : EReal :=
  ∑ h : Fin 1024, X (ix3 b x h) * M (ix2 h k)

/-- The score at (b, x, y):  Σ_k (X[b, x, ·] M)[k] · Y[b, y, k]. -/
def score (X Y : SB.Idx → EReal) (M : SM.Idx → EReal) : SB.Idx → EReal :=
  fun i => ∑ k : Fin 1024, rowTimesM X M (i 0) (i 1) k * Y (ix3 (i 0) (i 2) k)

theorem score_apply (X Y : SB.Idx → EReal) (M : SM.Idx → EReal) (b : Fin 16) (x y : Fin 1024) :
    score X Y M (ix3 b x y) = ∑ k : Fin 1024, rowTimesM X M b x k * Y (ix3 b y k) := rfl

end Cert.Bilinear

end
-- ==== Proof.TileValue.lean ====
/-
  One tile of the score from one tile's worth of loaded data.

  Suppose the loaded X block holds the rows  xr(r)  of batch b of X, the loaded M holds M, and the loaded Y block
  holds the rows  yr(q)  of batch b of Y. Then the first product is, at (r, k), the row  xr(r)  of batch b of X
  multiplied into M at column k; and the second product, of ANY array that holds those rows-times-M with the Y block,
  is at (0, r, q) the score at (b, xr(r), yr(q)). Only congruence of finite sums is used.
-/
import proofs.«144167_j27221502722366_1_alg».proof.Proof.Payload
import proofs.«144167_j27221502722366_1_alg».proof.Proof.Spec

noncomputable section

open Idealize.ShloMosaic Idealize.ShloMosaic.ValueIdx

namespace Cert.KernelIdeal.Tile

open Cert.KernelIdeal Cert.KernelIdeal.Gen Cert.Bilinear

/-- The first product of a block holding rows `xr r` of batch `b` of X, and M: those rows times M. -/
theorem first_value (X : SB.Idx → EReal) (M : SM.Idx → EReal)
    (x0 : Vec Ideal S1x512x1024 .f32) (x1 : Vec Ideal S1024x1024 .f32)
    (b : Fin 16) (xr : Fin 512 → Fin 1024)
    (e0 : ∀ (r : Fin 512) (h : Fin 1024), x0 (ix3 (0 : Fin 1) r h) = X (ix3 b (xr r) h))
    (e1 : ∀ (h k : Fin 1024), x1 (ix2 h k) = M (ix2 h k))
    (r : Fin 512) (k : Fin 1024) :
    k0_pay1 (F := Ideal) x0 x1 (ix2 r k) = rowTimesM X M b (xr r) k := by
  rw [Payload.first_product_apply]
  unfold rowTimesM
  exact Finset.sum_congr rfl fun h _ => by rw [e0, e1]

/-- The second product of an array holding those rows times M, and a block holding rows `yr q` of batch `b` of Y:
    the score at (b, xr r, yr q). -/
theorem second_value (X Y : SB.Idx → EReal) (M : SM.Idx → EReal)
    (s : Vec Ideal S512x1024 .f32) (x2 : Vec Ideal S1x512x1024 .f32)
    (b : Fin 16) (xr yr : Fin 512 → Fin 1024)
    (es : ∀ (r : Fin 512) (k : Fin 1024), s (ix2 r k) = rowTimesM X M b (xr r) k)
    (e2 : ∀ (q : Fin 512) (k : Fin 1024), x2 (ix3 (0 : Fin 1) q k) = Y (ix3 b (yr q) k))
    (u : Fin 1) (r q : Fin 512) :
    k0_pay2 (F := Ideal) s x2 (ix3 u r q) = score X Y M (ix3 b (xr r) (yr q)) := by
  rw [Payload.second_product_apply, score_apply]
  exact Finset.sum_congr rfl fun k _ => by rw [es, e2]

end Cert.KernelIdeal.Tile

end
-- ==== Proof.TileIndex.lean ====
/-
  Which part of each array a grid point sees.

  The grid is 16 × 2 × 2, its 64 points numbered row-major: point t has batch  t / 4,  row tile  (t / 2) mod 2  and
  column tile  t mod 2. At point t the X window holds rows  512·((t / 2) mod 2) + r  of batch t / 4 (it does not
  depend on the column tile), the M window holds all of M, the Y window holds rows  512·(t mod 2) + q  of batch
  t / 4, and the output window is the tile at those rows and columns of batch t / 4. The block index of each window
  at each point is decided once over the 64 points; an entry of a block is the array's entry at
  (block index) × (block size) + (coordinate inside the block) on every axis.
-/
import proofs.«144167_j27221502722366_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Tile

open Cert.KernelIdeal Cert.KernelIdeal.Gen

variable {F : FTy → Type} [FloatOps F]
variable (m : (ℓ : Loc nD τ sig) → Buf (Elt F) ℓ)

/-- The windows' block indices at every point, decided over the grid. -/
theorem index_facts : ∀ t : Fin cfg0.N,
    win0_0.index t (0 : Fin 3) = t.val / 4 ∧ win0_0.index t (1 : Fin 3) = t.val / 2 % 2 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = t.val % 2 ∧ win0_2.index t (2 : Fin 3) = 0
    ∧ win0_3.index t (0 : Fin 3) = t.val / 4 ∧ win0_3.index t (1 : Fin 3) = t.val / 2 % 2 ∧ win0_3.index t (2 : Fin 3) = t.val % 2 :=
  (by decide +kernel : ∀ t : Fin grid0.N, _)

theorem point_lt (t : Fin cfg0.N) : t.val < 64 := lt_of_lt_of_eq t.isLt N_0

/-- The batch of point `t`. -/
def batch (t : Fin cfg0.N) : Fin 16 := ⟨t.val / 4, by have := point_lt t; omega⟩
/-- The row of X (and of the result) that row `r` of point `t`'s tile is. -/
def xrow (t : Fin cfg0.N) (r : Fin 512) : Fin 1024 := ⟨512 * (t.val / 2 % 2) + r.val, by have := r.isLt; omega⟩
/-- The row of Y (the column of the result) that row `q` of point `t`'s Y block is. -/
def yrow (t : Fin cfg0.N) (q : Fin 512) : Fin 1024 := ⟨512 * (t.val % 2) + q.val, by have := q.isLt; omega⟩

/-- The X block at point `t`: rows `xrow t r` of batch `batch t`. -/
theorem read_X (c : Dev nD) (t : Fin cfg0.N) (r : Fin 512) (h : Fin 1024) :
    (iblk m c 0 t : Vec F S1x512x1024 .f32) (ix3 (0 : Fin 1) r h)
      = m ((c : Thread nD τ).loc main_arg0) (ix3 (batch t) (xrow t r) h) := by
  obtain ⟨a0, a1, a2, -⟩ := index_facts t
  unfold iblk
  rw [View.read_apply]
  show V m c main_arg0 (((cfg0.win 0).blk t).view.emb (ix3 (0 : Fin 1) r h)) = _
  unfold V
  congr 1
  funext a; apply Fin.ext
  match a with
  | ⟨0, _⟩ => show win0_0.index t (0 : Fin 3) * 1 + 1 * 0 = t.val / 4; omega
  | ⟨1, _⟩ => show win0_0.index t (1 : Fin 3) * 512 + 1 * r.val = 512 * (t.val / 2 % 2) + r.val; omega
  | ⟨2, _⟩ => show win0_0.index t (2 : Fin 3) * 1024 + 1 * h.val = h.val; omega

/-- The M block at any point: M. -/
theorem read_M (c : Dev nD) (t : Fin cfg0.N) (h k : Fin 1024) :
    (iblk m c 1 t : Vec F S1024x1024 .f32) (ix2 h k) = m ((c : Thread nD τ).loc main_arg2) (ix2 h k) := by
  obtain ⟨-, -, -, a0, a1, -⟩ := index_facts t
  unfold iblk
  rw [View.read_apply]
  show V m c main_arg2 (((cfg0.win 1).blk t).view.emb (ix2 h k)) = _
  unfold V
  congr 1
  funext a; apply Fin.ext
  match a with
  | ⟨0, _⟩ => show win0_1.index t (0 : Fin 2) * 1024 + 1 * h.val = h.val; omega
  | ⟨1, _⟩ => show win0_1.index t (1 : Fin 2) * 1024 + 1 * k.val = k.val; omega

/-- The Y block at point `t`: rows `yrow t q` of batch `batch t`. -/
theorem read_Y (c : Dev nD) (t : Fin cfg0.N) (q : Fin 512) (k : Fin 1024) :
    (iblk m c 2 t : Vec F S1x512x1024 .f32) (ix3 (0 : Fin 1) q k)
      = m ((c : Thread nD τ).loc main_arg1) (ix3 (batch t) (yrow t q) k) := by
  obtain ⟨-, -, -, -, -, a0, a1, a2, -⟩ := index_facts t
  unfold iblk
  rw [View.read_apply]
  show V m c main_arg1 (((cfg0.win 2).blk t).view.emb (ix3 (0 : Fin 1) q k)) = _
  unfold V
  congr 1
  funext a; apply Fin.ext
  match a with
  | ⟨0, _⟩ => show win0_2.index t (0 : Fin 3) * 1 + 1 * 0 = t.val / 4; omega
  | ⟨1, _⟩ => show win0_2.index t (1 : Fin 3) * 512 + 1 * q.val = 512 * (t.val % 2) + q.val; omega
  | ⟨2, _⟩ => show win0_2.index t (2 : Fin 3) * 1024 + 1 * k.val = k.val; omega

/-- Entry (u, r, q) of point `t`'s output tile is the result's entry (batch t, xrow t r, yrow t q). -/
theorem out_index (t : Fin cfg0.N) (u : Fin 1) (r q : Fin 512) :
    ((cfg0.win 3).blk t).view.emb (ix3 u r q) = (ix3 (batch t) (xrow t r) (yrow t q) : S16x1024x1024.Idx) := by
  obtain ⟨-, -, -, -, -, -, -, -, a0, a1, a2⟩ := index_facts t
  have hu : u.val = 0 := by omega
  funext a; apply Fin.ext
  match a with
  | ⟨0, _⟩ => show win0_3.index t (0 : Fin 3) * 1 + 1 * u.val = t.val / 4; omega
  | ⟨1, _⟩ => show win0_3.index t (1 : Fin 3) * 512 + 1 * r.val = 512 * (t.val / 2 % 2) + r.val; omega
  | ⟨2, _⟩ => show win0_3.index t (2 : Fin 3) * 512 + 1 * q.val = 512 * (t.val % 2) + q.val; omega

end Cert.KernelIdeal.Tile

end
-- ==== Proof.Result.lean ====
/-
  The kernel's result array is the score of its arguments.

  At a point whose column tile is 0 the body computes the first product from the X block and M, keeps it in the
  scratch, and writes back the second product of it with the Y block: by the tile lemmas that is the score on the
  point's output tile. At a point whose column tile is 1 the scratch still holds what the point before left — that
  point has the same batch and row tile, column tile 0, so it left the rows of this point's row tile times M — and the
  body writes back the second product of the scratch with this point's Y block: again the score on the point's tile.
  Every point writes its tile back, and the 64 tiles cover the result array (the tile of entry (b, x, y) is point
  4·b + 2·(x / 512) + y / 512), so the array ends holding the score everywhere.
-/
import proofs.«144167_j27221502722366_1_alg».proof.Proof.Gen.KernelIdeal.Value
import proofs.«144167_j27221502722366_1_alg».proof.Proof.Pieces
import proofs.«144167_j27221502722366_1_alg».proof.Proof.TileValue
import proofs.«144167_j27221502722366_1_alg».proof.Proof.TileIndex

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.Bilinear Cert.KernelIdeal.Tile

variable (m : (ℓ : Loc nD τ sig) → Buf (Elt Ideal) ℓ) (ρ : Dev nD → PrngReg)

/-- The score of the argument arrays as launched, as contents of the result array. -/
def result (c : Dev nD) : Buf (Elt Ideal) ((c : Thread nD τ).loc main_v0) :=
  score (m ((c : Thread nD τ).loc main_arg0)) (m ((c : Thread nD τ).loc main_arg1)) (m ((c : Thread nD τ).loc main_arg2))

/-- After a point with column tile 0 the scratch holds the rows of the point's row tile times M. -/
theorem scratch_after_first (c : Dev nD) (t : Fin cfg0.N) (h0 : t.val % 2 = 0) (r : Fin 512) (k : Fin 1024) :
    (outsAt0 m c t.val t.isLt).2 (ix2 r k)
      = rowTimesM (m ((c : Thread nD τ).loc main_arg0)) (m ((c : Thread nD τ).loc main_arg2)) (batch t) (xrow t r) k := by
  rw [outsAt0_A m c t h0]
  dsimp only
  rw [Pieces.scratch_first]
  exact first_value (m ((c : Thread nD τ).loc main_arg0)) (m ((c : Thread nD τ).loc main_arg2)) (iblk m c 0 t) (iblk m c 1 t)
    (batch t) (xrow t) (read_X m c t) (read_M m c t) r k

/-- What a point with column tile 0 writes back is the score on its tile. -/
theorem flushed_first (c : Dev nD) (t : Fin cfg0.N) (h0 : t.val % 2 = 0) :
    (dats m 0 c).flushed 3 t = ((cfg0.win 3).blk t).view.read (Elt Ideal) (result m c) := by
  rw [Value.flushed3_A m c t h0, Pieces.out_first]
  refine funext fun (j : S1x512x512.Idx) => ?_
  obtain ⟨u, r, q, rfl⟩ : ∃ (u : Fin 1) (r q : Fin 512), j = ix3 u r q := ⟨j 0, j 1, j 2, eq_ix3 j⟩
  show k0_pay2 (k0_pay1 (iblk m c 0 t) (iblk m c 1 t)) (iblk m c 2 t) (ix3 u r q)
    = result m c (((cfg0.win 3).blk t).view.emb (ix3 u r q))
  rw [out_index]
  exact second_value (m ((c : Thread nD τ).loc main_arg0)) (m ((c : Thread nD τ).loc main_arg1)) (m ((c : Thread nD τ).loc main_arg2))
    (k0_pay1 (iblk m c 0 t) (iblk m c 1 t)) (iblk m c 2 t) (batch t) (xrow t) (yrow t)
    (first_value (m ((c : Thread nD τ).loc main_arg0)) (m ((c : Thread nD τ).loc main_arg2)) (iblk m c 0 t) (iblk m c 1 t)
      (batch t) (xrow t) (read_X m c t) (read_M m c t))
    (read_Y m c t) u r q

/-- What a point with column tile 1 writes back is the score on its tile: the scratch is the point before's. -/
theorem flushed_later (c : Dev nD) (t : Fin cfg0.N) (h0 : ¬t.val % 2 = 0) :
    (dats m 0 c).flushed 3 t = ((cfg0.win 3).blk t).view.read (Elt Ideal) (result m c) := by
  have hlt : t.val - 1 < cfg0.N := Nat.lt_of_le_of_lt (Nat.sub_le _ _) t.isLt
  have hp : (⟨t.val - 1, hlt⟩ : Fin cfg0.N).val % 2 = 0 := by show (t.val - 1) % 2 = 0; omega
  rw [Value.flushed3_B m c t h0, Pieces.out_later]
  refine funext fun (j : S1x512x512.Idx) => ?_
  obtain ⟨u, r, q, rfl⟩ : ∃ (u : Fin 1) (r q : Fin 512), j = ix3 u r q := ⟨j 0, j 1, j 2, eq_ix3 j⟩
  show k0_pay2 ((outsAt0 m c (t.val - 1) hlt).2) (iblk m c 2 t) (ix3 u r q)
    = result m c (((cfg0.win 3).blk t).view.emb (ix3 u r q))
  rw [out_index]
  refine second_value (m ((c : Thread nD τ).loc main_arg0)) (m ((c : Thread nD τ).loc main_arg1)) (m ((c : Thread nD τ).loc main_arg2))
    ((outsAt0 m c (t.val - 1) hlt).2) (iblk m c 2 t) (batch t) (xrow t) (yrow t) (fun r' k => ?_) (read_Y m c t) u r q
  have hs := scratch_after_first m c ⟨t.val - 1, hlt⟩ hp r' k
  have hb : batch (⟨t.val - 1, hlt⟩ : Fin cfg0.N) = batch t := Fin.ext (by show (t.val - 1) / 4 = t.val / 4; omega)
  have hx : xrow (⟨t.val - 1, hlt⟩ : Fin cfg0.N) r' = xrow t r' :=
    Fin.ext (by show 512 * ((t.val - 1) / 2 % 2) + r'.val = 512 * (t.val / 2 % 2) + r'.val; omega)
  rw [hb, hx] at hs
  exact hs

/-- What any point writes back is the score on its tile. -/
theorem flushed_eq (c : Dev nD) (t : Fin cfg0.N) :
    (dats m 0 c).flushed 3 t = ((cfg0.win 3).blk t).view.read (Elt Ideal) (result m c) := by
  by_cases h0 : t.val % 2 = 0
  · exact flushed_first m c t h0
  · exact flushed_later m c t h0

/-- An entry of the result array lies in point `t`'s tile iff each coordinate lies in the tile's range on its axis. -/
theorem mem_tile (t : Fin cfg0.N) (i : S16x1024x1024.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v0).slice (win0_3.rect t)).set ↔ _
  rw [View.set_slice_whole, Rect.mem_set_unit]
  exact Iff.rfl

/-- Every entry of the result array lies in some point's tile. -/
theorem covered (i : S16x1024x1024.Idx) :
    ∃ t : Fin cfg0.N, (cfg0.win 3).flush t = true ∧ i ∈ ((cfg0.win 3).blk t).view.set := by
  have h0 : (i 0).val < 16 := (i 0).isLt
  have h1 : (i 1).val < 1024 := (i 1).isLt
  have h2 : (i 2).val < 1024 := (i 2).isLt
  have hN : cfg0.N = 64 := N_0
  let t : Fin cfg0.N := ⟨4 * (i 0).val + 2 * ((i 1).val / 512) + (i 2).val / 512, by omega⟩
  have hv : t.val = 4 * (i 0).val + 2 * ((i 1).val / 512) + (i 2).val / 512 := rfl
  obtain ⟨-, -, -, -, -, -, -, -, a0, a1, a2⟩ := index_facts t
  refine ⟨t, flush0_3 t, ?_⟩
  rw [mem_tile]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 512 ≤ (i 2).val ∧ (i 2).val < win0_3.index t (2 : Fin 3) * 512 + 512; omega

/-- So the result array ends holding the score. -/
theorem final (c : Dev nD) : (dats m 0 c).arrAt 3 cfg0.N = result m c :=
  (dats m 0 c).arrAt_eq_of_cover 3 (result m c) (fun t _ => flushed_eq m c t) covered

/-- The kernel's run, read: the result array at the score of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.RefScore.lean ====
/-
  The reference computes the score.

  The reference is two host contractions: first X against M over X's last axis (result [16, 1024, 1024], entry
  (b, x, k) = Σ_h X[b, x, h] · M[h, k]), then that array against Y, batched over the first axis and contracting the
  last axis of both (entry (b, x, y) = Σ_k XM[b, x, k] · Y[b, y, k]). Read at an index on the extended reals these are
  the nested sum of the specification, once the operand indices the contractions compute are written by coordinates.
-/
import proofs.«144167_j27221502722366_1_alg».proof.Proof.Gen.ReferenceIdeal.Read
import proofs.«144167_j27221502722366_1_alg».proof.Proof.Spec

noncomputable section

open Idealize.ShloMosaic Idealize.ShloMosaic.ValueIdx

namespace Cert.ReferenceIdeal.RefScore

open Cert.ReferenceIdeal Cert.ReferenceIdeal.Read Cert.Bilinear

/-- The reference's result, as a function of its three arguments, is the score. -/
theorem reference_eq (x0 x1 : (⟨S16x1024x1024, .f32⟩ : BufTy).Contents (Elt Ideal))
    (x2 : (⟨S1024x1024, .f32⟩ : BufTy).Contents (Elt Ideal)) :
    val_main_v1 (F := Ideal) x0 x1 x2 = score x0 x1 x2 := by
  funext i
  rw [val_main_v1_apply]
  unfold score
  refine Finset.sum_congr rfl fun k _ => ?_
  rw [val_main_v0_apply]
  unfold rowTimesM
  have e1 : ∀ h : Fin 1024, lidx_main_v0 (lidx_main_v1 i k) h = ix3 (i 0) (i 1) h := fun h => funext fun a => by
    match a with
    | ⟨0, _⟩ => rfl
    | ⟨1, _⟩ => rfl
    | ⟨2, _⟩ => rfl
  have e2 : ∀ h : Fin 1024, ridx_main_v0 (lidx_main_v1 i k) h = ix2 h k := fun h => funext fun a => by
    match a with
    | ⟨0, _⟩ => rfl
    | ⟨1, _⟩ => rfl
  have e3 : ridx_main_v1 i k = ix3 (i 0) (i 2) k := funext fun a => by
    match a with
    | ⟨0, _⟩ => rfl
    | ⟨1, _⟩ => rfl
    | ⟨2, _⟩ => rfl
  simp only [e1, e2, e3]
  rfl

end Cert.ReferenceIdeal.RefScore

end
-- ==== Proof.lean ====
/-
  A fused bilinear score against two contractions.

  The kernel computes, for X, Y : [16, 1024, 1024] and M : [1024, 1024], the array
      S[b, x, y] = Σ_k (Σ_h X[b, x, h] · M[h, k]) · Y[b, y, k]
  tile by tile over a 16 × 2 × 2 grid: for each batch and row tile it forms the rows of X times M once, at the first
  column tile, keeps them in a scratch buffer, and contracts them with each column tile's rows of Y. The reference
  forms X·M for the whole array and then contracts with Y, batch by batch. On the extended reals, where a change of
  float format is the identity and a matrix product is the plain sum over the contracted coordinate, both are the same
  nested sum in the same association (Proof/Spec.lean), so the two results are equal entry by entry for all inputs;
  the precondition is never opened.

  The modules: Spec (the score), LibDot and LibDotT (a product, plain or with the right factor transposed, read at an
  index), Payload (the body's two products at an index), Pieces (what one run of the body leaves in the scratch and
  in the output block, in each of its two cases), TileIndex (which rows of which array each grid point sees),
  TileValue (a tile of the score from a tile's data), Result (the kernel's result array is the score: what each
  point writes back, the tiles cover the array), RefScore (the reference's result is the score). The ideal pass
  rewrote nothing, so the kernel's idealization is its own text and that conjunct is trivial.
-/
import proofs.«144167_j27221502722366_1_alg».proof.Defs
import proofs.«144167_j27221502722366_1_alg».proof.Proof.Gen.Kernel
import proofs.«144167_j27221502722366_1_alg».proof.Proof.Gen.Kernel.Skeleton
import proofs.«144167_j27221502722366_1_alg».proof.Proof.Gen.Kernel.Launch
import proofs.«144167_j27221502722366_1_alg».proof.Proof.Gen.Kernel.Points
import proofs.«144167_j27221502722366_1_alg».proof.Proof.Gen.Kernel.Frame
import proofs.«144167_j27221502722366_1_alg».proof.Proof.Gen.KernelIdeal
import proofs.«144167_j27221502722366_1_alg».proof.Proof.Gen.KernelIdeal.Skeleton
import proofs.«144167_j27221502722366_1_alg».proof.Proof.Gen.KernelIdeal.Launch
import proofs.«144167_j27221502722366_1_alg».proof.Proof.Gen.KernelIdeal.Points
import proofs.«144167_j27221502722366_1_alg».proof.Proof.Gen.KernelIdeal.Frame
import proofs.«144167_j27221502722366_1_alg».proof.Proof.Gen.ReferenceIdeal
import proofs.«144167_j27221502722366_1_alg».proof.Proof.Gen.Pre_finite_inputs
import proofs.«144167_j27221502722366_1_alg».proof.Proof.Gen.KernelIdeal.Value
import proofs.«144167_j27221502722366_1_alg».proof.Proof.Gen.ReferenceIdeal.Run
import proofs.«144167_j27221502722366_1_alg».proof.Proof.Gen.ReferenceIdeal.Read
import proofs.«144167_j27221502722366_1_alg».proof.Proof.Result
import proofs.«144167_j27221502722366_1_alg».proof.Proof.RefScore
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel :=
  fun m ρ _ => Cert.Kernel.Gen.frame m ρ

/-- So does its idealization. -/
theorem frame_kernel_ideal : Cert.frame_KernelIdeal :=
  fun m ρ _ => Cert.KernelIdeal.Gen.frame m ρ

/-- The reference runs: its two contractions in order, the arguments never written. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on X, Y and M both programs end with the score of those arrays in their result. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefScore.reference_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
